-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64x256 : Shape := ⟨4, ![64, 64, 64, 256]⟩
abbrev S_ : Shape := ⟨0, ![]⟩

class Facts : Prop where
  bcast_S_S64x64x64x256 : S_.BroadcastsInDim S64x64x64x256 (![] : Fin 0 → Fin S64x64x64x256.rank)
  reducesTo_S64x64x64x256_S_d0_1_2_3 : S64x64x64x256.ReducesTo [0, 1, 2, 3] S_
  h_S_ : 0 < S_.numel

variable [Facts]

def fn {F : FTy → Type} [FloatOps F] (main_arg0 : FVec F S64x64x64x256 .f32) : IVec S_ 1 :=
  let main_v0 : FVec F S64x64x64x256 .f32 := Host.absf main_arg0
  let main_cst : FVec F S_ .f32 := constant S_ .f32 0x7F800000#32
  let main_v1 : FVec F S64x64x64x256 .f32 := broadcastInDim S64x64x64x256 ![] bcast_S_S64x64x64x256 main_cst
  let main_v2 : IVec S64x64x64x256 1 := cmpf .olt main_v0 main_v1
  let main_c : IVec S_ 1 := constantI S_ 1 1#1
  let main_v3 : IVec S_ 1 := (fun x v => Host.reduce IntOp.andi x v reducesTo_S64x64x64x256_S_d0_1_2_3 h_S_) main_v2 main_c
  main_v3
-- ==== Kernel.lean ====
abbrev S64x64x64x256 : Shape := ⟨4, ![64, 64, 64, 256]⟩
abbrev S64x32x32x256 : Shape := ⟨4, ![64, 32, 32, 256]⟩
abbrev S1x64x64x256 : Shape := ⟨4, ![1, 64, 64, 256]⟩
abbrev S1x32x32x256 : Shape := ⟨4, ![1, 32, 32, 256]⟩
abbrev S1x32x2x32x2x256 : Shape := ⟨6, ![1, 32, 2, 32, 2, 256]⟩
abbrev S1x32x32x2x256 : Shape := ⟨5, ![1, 32, 32, 2, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x64x64x256, .f32⟩
  | .hbm, ⟨1, _⟩ => ⟨S64x32x32x256, .f32⟩
  | .local _ .vmem, ⟨0, _⟩ => ⟨S1x64x64x256, .f32⟩
  | .local _ .vmem, ⟨1, _⟩ => ⟨S1x64x64x256, .f32⟩
  | .local _ .vmem, ⟨2, _⟩ => ⟨S1x32x32x256, .f32⟩
  | .local _ .vmem, ⟨3, _⟩ => ⟨S1x32x32x256, .f32⟩
  | _, _ => ⟨S64x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S1x32x2x32x2x256 : S1x64x64x256.ShapeCasts S1x32x2x32x2x256
  reduces_S1x32x2x32x2x256_S1x32x32x2x256 : S1x32x2x32x2x256.Reduces [2] S1x32x32x2x256
  reduces_S1x32x32x2x256_S1x32x32x256 : S1x32x32x2x256.Reduces [3] S1x32x32x256
  inb_S1x32x32x256_S1x32x32x256_0_0_0_0 : ∀ a, (![0, 0, 0, 0] : Fin 4 → Nat) a + S1x32x32x256.size a ≤ S1x32x32x256.size a
  h_S1x32x32x256 : 0 < S1x32x32x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S64x64x64x256.size a
  hwx0_0 : ∀ i : grid0.Coords, EltTy.bits .f32 = 32 ∨ (Rect.block (s := S64x64x64x256) S1x64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32x256.size a ≤ S64x32x32x256.size a
  hwx0_1 : ∀ i : grid0.Coords, EltTy.bits .f32 = 32 ∨ (Rect.block (s := S64x32x32x256) S1x32x32x256.size (cc0_transform_1 i) (hinb0_1 i)).WholeWords (EltTy.packing .f32)

variable [Facts₀]

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x32x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x64x256 : Shape := ⟨4, ![64, 64, 64, 256]⟩
abbrev S_ : Shape := ⟨0, ![]⟩
abbrev S64x32x2x32x2x256 : Shape := ⟨6, ![64, 32, 2, 32, 2, 256]⟩
abbrev S64x32x32x256 : Shape := ⟨4, ![64, 32, 32, 256]⟩

abbrev nBuf : Space → Nat
  | .hbm => 25
  | .vmem => 0
  | .smem => 0
  | _ => 0

abbrev bufTy : (tb : Table) → Fin (tcTables nBuf tb) → BufTy
  | .hbm, ⟨0, _⟩ => ⟨S64x64x64x256, .f32⟩
  | .hbm, ⟨1, _⟩ => ⟨S_, .f32⟩
  | .hbm, ⟨2, _⟩ => ⟨S64x64x64x256, .f32⟩
  | .hbm, ⟨3, _⟩ => ⟨S64x64x64x256, .f32⟩
  | .hbm, ⟨4, _⟩ => ⟨S64x32x2x32x2x256, .f32⟩
  | .hbm, ⟨5, _⟩ => ⟨S_, .f32⟩
  | .hbm, ⟨6, _⟩ => ⟨S64x32x32x256, .f32⟩
  | .hbm, ⟨7, _⟩ => ⟨S64x32x2x32x2x256, .f32⟩
  | .hbm, ⟨8, _⟩ => ⟨S_, .f32⟩
  | .hbm, ⟨9, _⟩ => ⟨S64x32x32x256, .f32⟩
  | .hbm, ⟨10, _⟩ => ⟨S_, .f32⟩
  | .hbm, ⟨11, _⟩ => ⟨S64x32x32x256, .f32⟩
  | .hbm, ⟨12, _⟩ => ⟨S64x32x32x256, .i1⟩
  | .hbm, ⟨13, _⟩ => ⟨S_, .f32⟩
  | .hbm, ⟨14, _⟩ => ⟨S_, .f32⟩
  | .hbm, ⟨15, _⟩ => ⟨S64x32x32x256, .f32⟩
  | .hbm, ⟨16, _⟩ => ⟨S64x32x32x256, .f32⟩
  | .hbm, ⟨17, _⟩ => ⟨S_, .f32⟩
  | .hbm, ⟨18, _⟩ => ⟨S64x32x32x256, .f32⟩
  | .hbm, ⟨19, _⟩ => ⟨S64x32x32x256, .i1⟩
  | .hbm, ⟨20, _⟩ => ⟨S64x32x32x256, .f32⟩
  | .hbm, ⟨21, _⟩ => ⟨S_, .f32⟩
  | .hbm, ⟨22, _⟩ => ⟨S_, .f32⟩
  | .hbm, ⟨23, _⟩ => ⟨S64x32x32x256, .f32⟩
  | .hbm, ⟨24, _⟩ => ⟨S64x32x32x256, .f32⟩
  | _, _ => ⟨S64x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S64x64x64x256 : S_.BroadcastsInDim S64x64x64x256 (![] : Fin 0 → Fin S64x64x64x256.rank)
  shapeCasts_S64x64x64x256_S64x32x2x32x2x256 : S64x64x64x256.ShapeCasts S64x32x2x32x2x256
  reducesTo_S64x32x2x32x2x256_S64x32x32x256_d2_4 : S64x32x2x32x2x256.ReducesTo [2, 4] S64x32x32x256
  h_S_ : 0 < S_.numel
  bcast_S_S64x32x32x256 : S_.BroadcastsInDim S64x32x32x256 (![] : Fin 0 → Fin S64x32x32x256.rank)

variable [Facts₀]

class Facts : Prop extends Facts₀ where

variable [Facts]
-- ==== Proof.Window.lean ====
/-
  One 2×2 pooling window, as mathematics.

  The input is an array `X` of extents [64, 64, 64, 256] (batch, row, column, channel). The result has extents
  [64, 32, 32, 256]: entry (b, h, w, c) depends on the four entries of `X` at rows `2h + p` and columns `2w + q`
  (`p, q ∈ {0, 1}`) of batch `b` and channel `c`. Each of the four is first clamped below at zero; with `s` the sum
  of the four clamped entries and `ss` the sum of their squares, the result is `ss / s` where `s > 0` and `0`
  elsewhere (the divisor is replaced by `1` where `s ≤ 0`, so the quotient is always taken by a positive number
  or by one).

  A window's sum is written here as the sum over the column offset `q` of the sum over the row offset `p`. A sum
  over the four pairs `(p, q)` taken in any other grouping is the same extended real: addition of extended reals is
  commutative and associative, and no other law is used.
-/
import Idealize.ShloMosaic.PureOps.Ideal
import Idealize.ShloMosaic.Lib.ValueIdx

noncomputable section

namespace Cert.Pool

open Idealize.ShloMosaic Idealize.ShloMosaic.ValueIdx

/-- Position `2h + p` on an axis of extent 64: entry `p` of window `h` on that axis. -/
def fine (h : Fin 32) (p : Fin 2) : Fin 64 := ⟨2 * h.val + p.val, by omega⟩

theorem fine_val (h : Fin 32) (p : Fin 2) : (fine h p).val = 2 * h.val + p.val := rfl

/-- The clamp below at zero. -/
def clamp (x : EReal) : EReal := max x (Ideal.ofBits .f32 0x00000000#32)

/-- The sum of a window's four values: over the column offset `q`, of the sum over the row offset `p`. -/
def wsum (f : Fin 2 → Fin 2 → EReal) : EReal := ∑ q : Fin 2, ∑ p : Fin 2, f p q

/-- From a window's sum `s` and sum of squares `ss`: `ss / s` where `s > 0`, else `0`; where `s ≤ 0` the
    divisor is `1`. -/
def ratio (s ss : EReal) : EReal :=
  Scalar.select (Ideal.cmp .ogt s (Ideal.ofBits .f32 0x00000000#32))
    (Ideal.div ss (Scalar.select (Ideal.cmp .ogt s (Ideal.ofBits .f32 0x00000000#32)) s (Ideal.ofBits .f32 0x3F800000#32)))
    (Ideal.ofBits .f32 0x00000000#32)

/-- The pooled value of the window whose entry at offsets `(p, q)` is `f p q`. -/
def pooled (f : Fin 2 → Fin 2 → EReal) : EReal :=
  ratio (wsum fun p q => clamp (f p q)) (wsum fun p q => clamp (f p q) * clamp (f p q))

/-- The result at (b, h, w, c) of an input with any number `B` of batches. -/
def pooledAt {B : Nat} (X : (⟨4, ![B, 64, 64, 256]⟩ : Shape).Idx → EReal) (b : Fin B) (h w : Fin 32) (c : Fin 256) : EReal :=
  pooled fun p q => X (ix4 b (fine h p) (fine w q) c)

/-- The whole result array as one function of the whole input array. -/
def G (X : (⟨4, ![64, 64, 64, 256]⟩ : Shape).Idx → EReal) : (⟨4, ![64, 32, 32, 256]⟩ : Shape).Idx → EReal :=
  fun i => pooledAt X (i 0) (i 1) (i 2) (i 3)

theorem G_apply (X : (⟨4, ![64, 64, 64, 256]⟩ : Shape).Idx → EReal) (b : Fin 64) (h w : Fin 32) (c : Fin 256) :
    G X (ix4 b h w c) = pooledAt X b h w c := rfl

end Cert.Pool

end
-- ==== Proof.Layout.lean ====
/-
  How the two programs address a window.

  Both programs view the clamped input of extents [B, 64, 64, 256] as an array of extents [B, 32, 2, 32, 2, 256] with the
  same entries in the same row-major order: entry (b, h, p, w, q, c) of the view is entry (b, 2h + p, 2w + q, c) of the
  input, because 64·(2h + p) + (2w + q) and 2·(32·(2·h + p) + w) + q are the same number once the batch and channel
  digits are put back (`split_apply`).

  A window's sum is then taken in two ways. Summing axis 2 of the view (the row offset `p`) and after that axis 3 of
  what is left (the column offset `q`) is literally the nested sum `∑ q, ∑ p` (`nested_sum`). Summing axes 2 and 4
  of the view at once runs over the indices of the view that agree with (b, h, w, c) on the four kept axes; those are
  exactly the four indices (b, h, p, w, q, c), one for each pair (p, q), so that sum is the same nested sum
  (`joint_sum`): a finite sum over a set in bijection with the pairs, regrouped by commutativity and associativity
  of addition.
-/
import Idealize.ShloMosaic.PureOps.Ideal.Laws
import Idealize.ShloMosaic.Lib.Pipeline.Value
import Idealize.ShloMosaic.Lib.ValueIdx
import Idealize.ShloMosaic.Lib.ValueIdxRank6
import proofs.«181515_j57526791963008_1_alg».proof.Proof.Window

noncomputable section

namespace Cert.Pool

open Idealize.ShloMosaic Idealize.ShloMosaic.ValueIdx

/-- The six-axis view read at (b, h, p, w, q, c) is the four-axis array at (b, 2h + p, 2w + q, c): the two
    indices have the same row-major position. -/
theorem split_apply {α : Type} {B : Nat} (x : (⟨4, ![B, 64, 64, 256]⟩ : Shape).Idx → α)
    (hc : (⟨4, ![B, 64, 64, 256]⟩ : Shape).ShapeCasts ⟨6, ![B, 32, 2, 32, 2, 256]⟩)
    (b : Fin B) (h : Fin 32) (p : Fin 2) (w : Fin 32) (q : Fin 2) (c : Fin 256) :
    shapeCast ⟨6, ![B, 32, 2, 32, 2, 256]⟩ x hc (ix6 b h p w q c) = x (ix4 b (fine h p) (fine w q) c) := by
  refine shapeCast_apply x hc _ _ ?_
  rw [Shape.rowMajor_val_four, Shape.rowMajor_val_six]
  show ((b.val * 64 + (2 * h.val + p.val)) * 64 + (2 * w.val + q.val)) * 256 + c.val
      = ((((b.val * 32 + h.val) * 2 + p.val) * 32 + w.val) * 2 + q.val) * 256 + c.val
  omega

/-- Summing the view's axis 2 and then the remaining axis 3, read at (b, h, w, c): the sum over `q` of the sum over
    `p` of the view at (b, h, p, w, q, c). -/
theorem nested_sum (v : FVec Ideal ⟨6, ![1, 32, 2, 32, 2, 256]⟩ .f32)
    (h1 : (⟨6, ![1, 32, 2, 32, 2, 256]⟩ : Shape).Reduces [2] ⟨5, ![1, 32, 32, 2, 256]⟩)
    (h2 : (⟨5, ![1, 32, 32, 2, 256]⟩ : Shape).Reduces [3] ⟨4, ![1, 32, 32, 256]⟩)
    (hφ1 hφ2 : FKind.Formats .f32)
    (ha1 : (0x00000000#32 : BitVec 32) = FKind.add.neutral .f32 hφ1)
    (ha2 : (0x00000000#32 : BitVec 32) = FKind.add.neutral .f32 hφ2)
    (b : Fin 1) (h w : Fin 32) (c : Fin 256) :
    multiReduction .add [3] ⟨4, ![1, 32, 32, 256]⟩
        (multiReduction .add [2] ⟨5, ![1, 32, 32, 2, 256]⟩ v 0x00000000#32 h1 hφ1 ha1) 0x00000000#32 h2 hφ2 ha2 (ix4 b h w c)
      = wsum fun p q => v (ix6 b h p w q c) := by
  refine (Ideal.multiReduction_add_single _ 0x00000000#32 h2 hφ2 ha2 (ix4 b h w c)).trans ?_
  unfold wsum
  refine Finset.sum_congr rfl fun q _ => ?_
  have e2 : h2.lift (ix4 b h w c) q = ix5 b h w q c := by
    funext a; apply Fin.ext
    match a with
    | ⟨0, _⟩ => rfl | ⟨1, _⟩ => rfl | ⟨2, _⟩ => rfl | ⟨3, _⟩ => rfl | ⟨4, _⟩ => rfl
  rw [e2]
  refine (Ideal.multiReduction_add_single v 0x00000000#32 h1 hφ1 ha1 (ix5 b h w q c)).trans ?_
  refine Finset.sum_congr rfl fun p _ => congrArg v ?_
  funext a; apply Fin.ext
  match a with
  | ⟨0, _⟩ => rfl | ⟨1, _⟩ => rfl | ⟨2, _⟩ => rfl | ⟨3, _⟩ => rfl | ⟨4, _⟩ => rfl | ⟨5, _⟩ => rfl

/-- On the four kept axes, dropping axes 2 and 4 of a six-axis index keeps coordinates 0, 1, 3 and 5. -/
theorem drop_vals (h' : (⟨6, ![64, 32, 2, 32, 2, 256]⟩ : Shape).ReducesTo [2, 4] ⟨4, ![64, 32, 32, 256]⟩)
    (i : (⟨6, ![64, 32, 2, 32, 2, 256]⟩ : Shape).Idx) :
    (h'.drop i 0).val = (i 0).val ∧ (h'.drop i 1).val = (i 1).val ∧ (h'.drop i 2).val = (i 3).val
      ∧ (h'.drop i 3).val = (i 5).val :=
  ⟨h'.drop_apply_val_of_eq i 0 0, h'.drop_apply_val_of_eq i 1 1, h'.drop_apply_val_of_eq i 2 3,
    h'.drop_apply_val_of_eq i 3 5⟩

/-- Summing the view's axes 2 and 4 at once, read at (b, h, w, c): the initial value plus the window's sum. The
    indices of the view lying over (b, h, w, c) are the four (b, h, p, w, q, c); the sum over them is regrouped as
    the sum over `q` of the sum over `p`. -/
theorem joint_sum (v : (⟨6, ![64, 32, 2, 32, 2, 256]⟩ : Shape).Idx → EReal)
    (h' : (⟨6, ![64, 32, 2, 32, 2, 256]⟩ : Shape).ReducesTo [2, 4] ⟨4, ![64, 32, 32, 256]⟩) (init : EReal)
    (b : Fin 64) (h w : Fin 32) (c : Fin 256) :
    Ideal.hostReduceAdd h' v init (ix4 b h w c) = init + wsum fun p q => v (ix6 b h p w q c) := by
  unfold Ideal.hostReduceAdd wsum
  refine congrArg (init + ·) ?_
  rw [← Fintype.sum_prod_type' (fun (q p : Fin 2) => v (ix6 b h p w q c))]
  refine (Finset.sum_nbij' (s := (Finset.univ : Finset (Fin 2 × Fin 2)))
    (fun x : Fin 2 × Fin 2 => ix6 b h x.2 w x.1 c) (fun i => (i 4, i 2)) ?_ ?_ ?_ ?_ ?_).symm
  · intro x _
    refine Finset.mem_filter.2 ⟨Finset.mem_univ _, ?_⟩
    obtain ⟨d0, d1, d2, d3⟩ := drop_vals h' (ix6 b h x.2 w x.1 c)
    funext a; apply Fin.ext
    match a with
    | ⟨0, _⟩ => exact d0 | ⟨1, _⟩ => exact d1 | ⟨2, _⟩ => exact d2 | ⟨3, _⟩ => exact d3
  · intro i _; exact Finset.mem_univ _
  · intro x _; rfl
  · intro i hi
    have hd := (Finset.mem_filter.1 hi).2
    obtain ⟨d0, d1, d2, d3⟩ := drop_vals h' i
    have e0 : (i 0).val = b.val := d0.symm.trans (congrArg Fin.val (congrFun hd 0))
    have e1 : (i 1).val = h.val := d1.symm.trans (congrArg Fin.val (congrFun hd 1))
    have e3 : (i 3).val = w.val := d2.symm.trans (congrArg Fin.val (congrFun hd 2))
    have e5 : (i 5).val = c.val := d3.symm.trans (congrArg Fin.val (congrFun hd 3))
    funext a; apply Fin.ext
    match a with
    | ⟨0, _⟩ => exact e0.symm | ⟨1, _⟩ => exact e1.symm | ⟨2, _⟩ => rfl | ⟨3, _⟩ => exact e3.symm
    | ⟨4, _⟩ => rfl | ⟨5, _⟩ => exact e5.symm
  · intro x _; rfl

end Cert.Pool

end
-- ==== Proof.KernelBlock.lean ====
/-
  What the kernel's body stores, entry by entry.

  At one grid point the body loads a block `x0` of extents [1, 64, 64, 256] (one batch), clamps it at zero, views it with
  the rows and columns split into (window, offset) pairs, sums the row offsets and then the column offsets — once for the
  clamped entries and once for their squares — and stores `ss / s` where `s > 0`, `0` elsewhere. So entry (0, h, w, c) of
  the stored block is the pooled value of the window whose entries are `x0` at (0, 2h + p, 2w + q, c).
-/
import proofs.«181515_j57526791963008_1_alg».proof.Proof.Gen.KernelIdeal.Skeleton
import proofs.«181515_j57526791963008_1_alg».proof.Proof.Layout

noncomputable section

namespace Cert.KernelIdeal.Block

open Cert.KernelIdeal Cert.KernelIdeal.Gen Cert.Pool Idealize.ShloMosaic Idealize.ShloMosaic.ValueIdx

/-- The block's clamped entries in the six-axis view. -/
def view6 (x0 : Vec Ideal S1x64x64x256 .f32) : FVec Ideal S1x32x2x32x2x256 .f32 :=
  shapeCast S1x32x2x32x2x256 (maximumf x0 (broadcast S1x64x64x256 (Scalar.ofBits (F := Ideal) .f32 0x00000000#32)))
    shapeCasts_S1x64x64x256_S1x32x2x32x2x256

/-- The view at (0, h, p, w, q, c) is the clamp of the block at (0, 2h + p, 2w + q, c). -/
theorem view6_apply (x0 : Vec Ideal S1x64x64x256 .f32) (h : Fin 32) (p : Fin 2) (w : Fin 32) (q : Fin 2) (c : Fin 256) :
    view6 x0 (ix6 (0 : Fin 1) h p w q c) = clamp (x0 (ix4 (0 : Fin 1) (fine h p) (fine w q) c)) :=
  split_apply (B := 1) _ _ 0 h p w q c

/-- Entry (0, h, w, c) of what the body stores is the pooled value of window (h, w) of the loaded block, channel `c`. -/
theorem pay_apply (x0 : Vec Ideal S1x64x64x256 .f32) (h w : Fin 32) (c : Fin 256) :
    k0_pay1 (F := Ideal) x0 (ix4 (0 : Fin 1) h w c) = pooledAt (B := 1) x0 0 h w c := by
  have hs := nested_sum (view6 x0) reduces_S1x32x2x32x2x256_S1x32x32x2x256 reduces_S1x32x32x2x256_S1x32x32x256
    (.inl rfl) (.inl rfl) rfl rfl 0 h w c
  have hss := nested_sum (mulf (view6 x0) (view6 x0)) reduces_S1x32x2x32x2x256_S1x32x32x2x256
    reduces_S1x32x32x2x256_S1x32x32x256 (.inl rfl) (.inl rfl) rfl rfl 0 h w c
  have es : (wsum fun p q => view6 x0 (ix6 (0 : Fin 1) h p w q c))
      = wsum fun p q => clamp (x0 (ix4 (0 : Fin 1) (fine h p) (fine w q) c)) := by
    unfold wsum
    exact Finset.sum_congr rfl fun q _ => Finset.sum_congr rfl fun p _ => view6_apply x0 h p w q c
  have ess : (wsum fun p q => mulf (view6 x0) (view6 x0) (ix6 (0 : Fin 1) h p w q c))
      = wsum fun p q => clamp (x0 (ix4 (0 : Fin 1) (fine h p) (fine w q) c)) * clamp (x0 (ix4 (0 : Fin 1) (fine h p) (fine w q) c)) := by
    unfold wsum
    refine Finset.sum_congr rfl fun q _ => Finset.sum_congr rfl fun p _ => ?_
    show view6 x0 (ix6 (0 : Fin 1) h p w q c) * view6 x0 (ix6 (0 : Fin 1) h p w q c) = _
    rw [view6_apply]
  refine Eq.trans ?_ (congrArg₂ ratio (hs.trans es) (hss.trans ess))
  rfl

end Cert.KernelIdeal.Block

end
-- ==== Proof.KernelArray.lean ====
/-
  From the blocks to the whole result array.

  The kernel's grid has 64 points, one per batch. At point `t` the body is given batch `t` of the input (a block of
  extents [1, 64, 64, 256]) and what it stores is written back as batch `t` of the result (a block of extents
  [1, 32, 32, 256]). Entry (0, h, w, c) of the stored block is the pooled value of window (h, w) of the loaded block,
  which is window (h, w) of batch `t` of the input: the written block is batch `t` of `G` of the input. The 64 batches
  are all of the result array, so after the run the result array is `G` of the input.
-/
import proofs.«181515_j57526791963008_1_alg».proof.Proof.Gen.KernelIdeal.Value
import proofs.«181515_j57526791963008_1_alg».proof.Proof.KernelBlock

noncomputable section

namespace Cert.KernelIdeal.Whole

open Cert.KernelIdeal Cert.KernelIdeal.Gen Cert.KernelIdeal.Block Cert.Pool Idealize.ShloMosaic
  Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl

/-- One stored block against `G`: if the loaded block `x0` is batch `b` of `X`, then the stored value at a block
    index `y` is `G X` at the array index `i` that has batch `b` and `y`'s window and channel coordinates. -/
theorem stored_eq (X : S64x64x64x256.Idx → EReal) (x0 : Vec Ideal S1x64x64x256 .f32) (b : Fin 64)
    (hx : ∀ (r s : Fin 64) (c : Fin 256), x0 (ix4 (0 : Fin 1) r s c) = X (ix4 b r s c))
    (y : S1x32x32x256.Idx) (i : S64x32x32x256.Idx)
    (h0 : (i 0).val = b.val) (h1 : (i 1).val = (y 1).val) (h2 : (i 2).val = (y 2).val) (h3 : (i 3).val = (y 3).val) :
    k0_pay1 (F := Ideal) x0 y = G X i := by
  obtain ⟨y0, h, w, c, rfl⟩ : ∃ (y0 : Fin 1) (h w : Fin 32) (c : Fin 256), y = ix4 y0 h w c :=
    ⟨y 0, y 1, y 2, y 3, eq_ix4 y⟩
  obtain ⟨b', h', w', c', rfl⟩ : ∃ (b' : Fin 64) (h' w' : Fin 32) (c' : Fin 256), i = ix4 b' h' w' c' :=
    ⟨i 0, i 1, i 2, i 3, eq_ix4 i⟩
  have eb : b' = b := Fin.ext h0
  have eh : h' = h := Fin.ext h1
  have ew : w' = w := Fin.ext h2
  have ec : c' = c := Fin.ext h3
  have ey : y0 = 0 := Fin.ext (by have := y0.isLt; omega)
  subst eb eh ew ec ey
  rw [pay_apply, G_apply]
  unfold pooledAt
  exact congrArg pooled (funext fun p => funext fun q => hx _ _ _)

/-- The printed index maps, decided over the 64 grid points: both windows' block index is (t, 0, 0, 0). -/
theorem idx_facts : ∀ t : Fin cfg0.N,
    win0_0.index t (0 : Fin 4) = t.val ∧ win0_0.index t (1 : Fin 4) = 0 ∧ win0_0.index t (2 : Fin 4) = 0
      ∧ win0_0.index t (3 : Fin 4) = 0
      ∧ win0_1.index t (0 : Fin 4) = t.val ∧ win0_1.index t (1 : Fin 4) = 0 ∧ win0_1.index t (2 : Fin 4) = 0
      ∧ win0_1.index t (3 : Fin 4) = 0 ∧ t.val < 64 :=
  (by decide +kernel : ∀ t : Fin grid0.N, _)

/-- WHAT POINT `t` WRITES BACK is block `t` of `G` of the input array as the region finds it. -/
theorem flushed_eq (c : Dev nD) (t : Fin cfg0.N) :
    (dats m 0 c).flushed 1 t = ((cfg0.win 1).blk t).view.read (Elt Ideal) (G (V m c main_arg0)) := by
  rw [Value.flushed1]
  unfold out0_1
  rw [View.canon_unit_zero zeros4]
  simp only [View.ld_unit_zero (S := S1x64x64x256) zeros4]
  obtain ⟨a0, a1, a2, a3, b0, b1, b2, b3, ht⟩ := idx_facts t
  funext y
  show k0_pay1 (F := Ideal) (iblk m c 0 t) y = G (V m c main_arg0) (((cfg0.win 1).blk t).view.emb y)
  refine stored_eq (V m c main_arg0) (iblk m c 0 t) ⟨t.val, ht⟩ ?_ y _ ?_ ?_ ?_ ?_
  · intro r s c'
    show V m c main_arg0 (((cfg0.win 0).blk t).view.emb (ix4 (0 : Fin 1) r s c')) = V m c main_arg0 (ix4 ⟨t.val, ht⟩ r s c')
    refine congrArg (V m c main_arg0) ?_
    funext a; apply Fin.ext
    match a with
    | ⟨0, _⟩ => show win0_0.index t (0 : Fin 4) * 1 + 1 * 0 = t.val; omega
    | ⟨1, _⟩ => show win0_0.index t (1 : Fin 4) * 64 + 1 * r.val = r.val; omega
    | ⟨2, _⟩ => show win0_0.index t (2 : Fin 4) * 64 + 1 * s.val = s.val; omega
    | ⟨3, _⟩ => show win0_0.index t (3 : Fin 4) * 256 + 1 * c'.val = c'.val; omega
  · show win0_1.index t (0 : Fin 4) * 1 + 1 * (y 0).val = t.val
    have hy : (y 0).val < 1 := (y 0).isLt
    omega
  · show win0_1.index t (1 : Fin 4) * 32 + 1 * (y 1).val = (y 1).val; omega
  · show win0_1.index t (2 : Fin 4) * 32 + 1 * (y 2).val = (y 2).val; omega
  · show win0_1.index t (3 : Fin 4) * 256 + 1 * (y 3).val = (y 3).val; omega

/-- An index of the result array is in point `t`'s block iff each coordinate is in the block's range on its axis. -/
theorem mem_blk (t : Fin cfg0.N) (i : S64x32x32x256.Idx) :
    i ∈ ((cfg0.win 1).blk t).view.set ↔ ∀ a : Fin 4, win0_1.index t a * S1x32x32x256.size a ≤ (i a).val
      ∧ (i a).val < win0_1.index t a * S1x32x32x256.size a + S1x32x32x256.size a := by
  show i ∈ ((View.whole main_v0).slice (win0_1.rect t)).set ↔ _
  rw [View.set_slice_whole, Rect.mem_set_unit]
  exact Iff.rfl

/-- Every index of the result array is in some point's block: the point is the index's batch. -/
theorem cover (i : S64x32x32x256.Idx) :
    ∃ t : Fin cfg0.N, (cfg0.win 1).flush t = true ∧ i ∈ ((cfg0.win 1).blk t).view.set := by
  have hi0 : (i 0).val < 64 := (i 0).isLt
  have hi1 : (i 1).val < 32 := (i 1).isLt
  have hi2 : (i 2).val < 32 := (i 2).isLt
  have hi3 : (i 3).val < 256 := (i 3).isLt
  refine ⟨⟨(i 0).val, hi0⟩, flush0_1 _, ?_⟩
  obtain ⟨-, -, -, -, b0, b1, b2, b3, -⟩ := idx_facts ⟨(i 0).val, hi0⟩
  rw [mem_blk]
  intro a
  match a with
  | ⟨0, _⟩ =>
    show win0_1.index ⟨(i 0).val, hi0⟩ (0 : Fin 4) * 1 ≤ (i 0).val ∧ (i 0).val < win0_1.index ⟨(i 0).val, hi0⟩ (0 : Fin 4) * 1 + 1
    have : win0_1.index ⟨(i 0).val, hi0⟩ (0 : Fin 4) = (i 0).val := b0
    omega
  | ⟨1, _⟩ =>
    show win0_1.index ⟨(i 0).val, hi0⟩ (1 : Fin 4) * 32 ≤ (i 1).val ∧ (i 1).val < win0_1.index ⟨(i 0).val, hi0⟩ (1 : Fin 4) * 32 + 32
    omega
  | ⟨2, _⟩ =>
    show win0_1.index ⟨(i 0).val, hi0⟩ (2 : Fin 4) * 32 ≤ (i 2).val ∧ (i 2).val < win0_1.index ⟨(i 0).val, hi0⟩ (2 : Fin 4) * 32 + 32
    omega
  | ⟨3, _⟩ =>
    show win0_1.index ⟨(i 0).val, hi0⟩ (3 : Fin 4) * 256 ≤ (i 3).val ∧ (i 3).val < win0_1.index ⟨(i 0).val, hi0⟩ (3 : Fin 4) * 256 + 256
    omega

/-- THE RESULT ARRAY after the run is `G` of the input array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, re-posted: the result array at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefValue.lean ====
/-
  What the reference computes, entry by entry.

  The reference clamps the whole input `X` of extents [64, 64, 64, 256] at zero, views it with the rows and columns split
  into (window, offset) pairs, sums both offset axes at once — once for the clamped entries and once for their squares,
  each sum started from the constant `0` —, and selects `ss / s` where `s > 0`, `0` elsewhere. So entry (b, h, w, c) of
  its result is the pooled value of the window whose entries are `X` at (b, 2h + p, 2w + q, c): the whole result is
  the function `G` of `X`.
-/
import proofs.«181515_j57526791963008_1_alg».proof.Proof.Gen.ReferenceIdeal.Read
import proofs.«181515_j57526791963008_1_alg».proof.Proof.Layout

noncomputable section

namespace Cert.ReferenceIdeal.RefValue

open Cert.ReferenceIdeal Cert.ReferenceIdeal.Gen Cert.ReferenceIdeal.Read Cert.Pool Idealize.ShloMosaic
  Idealize.ShloMosaic.ValueIdx

/-- The clamped input in the six-axis view, at (b, h, p, w, q, c): the clamp of the input at (b, 2h + p, 2w + q, c). -/
theorem view6_apply (X : (⟨S64x64x64x256, .f32⟩ : BufTy).Contents (Elt Ideal)) (b : Fin 64) (h : Fin 32) (p : Fin 2)
    (w : Fin 32) (q : Fin 2) (c : Fin 256) :
    val_main_v2 (F := Ideal) X (ix6 b h p w q c) = clamp (X (ix4 b (fine h p) (fine w q) c)) :=
  split_apply (B := 64) _ _ b h p w q c

/-- The window's sum of clamped entries, as the reference takes it. -/
theorem sum_apply (X : (⟨S64x64x64x256, .f32⟩ : BufTy).Contents (Elt Ideal)) (b : Fin 64) (h w : Fin 32) (c : Fin 256) :
    val_main_v3 (F := Ideal) X (ix4 b h w c) = wsum fun p q => clamp (X (ix4 b (fine h p) (fine w q) c)) := by
  refine (joint_sum (val_main_v2 (F := Ideal) X) reducesTo_S64x32x2x32x2x256_S64x32x32x256_d2_4 _ b h w c).trans ?_
  show Ideal.ofBits .f32 0x00000000#32 + _ = _
  rw [Ideal.ofBits_zero_f32, zero_add]
  unfold wsum
  exact Finset.sum_congr rfl fun q _ => Finset.sum_congr rfl fun p _ => view6_apply X b h p w q c

/-- The window's sum of squares, as the reference takes it. -/
theorem sumsq_apply (X : (⟨S64x64x64x256, .f32⟩ : BufTy).Contents (Elt Ideal)) (b : Fin 64) (h w : Fin 32) (c : Fin 256) :
    val_main_v5 (F := Ideal) X (ix4 b h w c)
      = wsum fun p q => clamp (X (ix4 b (fine h p) (fine w q) c)) * clamp (X (ix4 b (fine h p) (fine w q) c)) := by
  refine (joint_sum (val_main_v4 (F := Ideal) X) reducesTo_S64x32x2x32x2x256_S64x32x32x256_d2_4 _ b h w c).trans ?_
  show Ideal.ofBits .f32 0x00000000#32 + _ = _
  rw [Ideal.ofBits_zero_f32, zero_add]
  unfold wsum
  refine Finset.sum_congr rfl fun q _ => Finset.sum_congr rfl fun p _ => ?_
  show val_main_v2 (F := Ideal) X (ix6 b h p w q c) * val_main_v2 (F := Ideal) X (ix6 b h p w q c) = _
  rw [view6_apply]

/-- The reference's result is `G` of its argument. -/
theorem result_eq (X : (⟨S64x64x64x256, .f32⟩ : BufTy).Contents (Elt Ideal)) :
    val_main_v12 (F := Ideal) X = G X := by
  funext i
  obtain ⟨b, h, w, c, rfl⟩ : ∃ (b : Fin 64) (h w : Fin 32) (c : Fin 256), i = ix4 b h w c :=
    ⟨i 0, i 1, i 2, i 3, eq_ix4 i⟩
  rw [G_apply]
  refine Eq.trans ?_ (congrArg₂ ratio (sum_apply X b h w c) (sumsq_apply X b h w c))
  rfl

end Cert.ReferenceIdeal.RefValue

end
-- ==== Proof.lean ====
/-
  The kernel and its reference compute the same array over the extended reals.

  Input: an array `X` of extents [64, 64, 64, 256] (batch, row, column, channel). Output: extents [64, 32, 32, 256].
  For each batch `b`, channel `c` and each 2×2 window (h, w) of rows {2h, 2h + 1} and columns {2w, 2w + 1}: clamp the
  four entries below at zero, let `s` be their sum and `ss` the sum of their squares; the output entry is `ss / s`
  where `s > 0` and `0` elsewhere (the quotient is taken by `1` where `s ≤ 0`). Proof/Window.lean writes this as the
  function `G` of `X`.

  The kernel works one batch per grid point. Its body views the clamped block with rows and columns split into
  (window, offset) pairs and sums the row offsets first and the column offsets second; the reference views the whole
  clamped array the same way and sums both offset axes in one reduction started from zero. Both views address
  entry (2h + p, 2w + q) as (h, p, w, q) (Proof/Layout.lean, `split_apply`), and both sums are the window's four values
  added up — `∑ q, ∑ p` on one side (`nested_sum`), a sum over the four indices lying over the output entry on the
  other, regrouped by commutativity and associativity of addition (`joint_sum`). No law that fails at an infinity is
  used, so the finiteness of the input is not needed for the equality.

  Proof/KernelBlock.lean reads the kernel's stored block entry by entry; Proof/KernelArray.lean shows that the 64
  written blocks are the 64 batches of `G X` and that they fill the result array; Proof/RefValue.lean reads the
  reference's result entry by entry as `G X`. The three frame conjuncts are the generated frames (the reference's is
  its generated run with the result forgotten), and the kernel over the extended reals is the kernel's own text, read
  there, so there is nothing to preserve.
-/
import proofs.«181515_j57526791963008_1_alg».proof.Defs
import proofs.«181515_j57526791963008_1_alg».proof.Proof.Gen.Kernel
import proofs.«181515_j57526791963008_1_alg».proof.Proof.Gen.Kernel.Skeleton
import proofs.«181515_j57526791963008_1_alg».proof.Proof.Gen.Kernel.Launch
import proofs.«181515_j57526791963008_1_alg».proof.Proof.Gen.Kernel.Points
import proofs.«181515_j57526791963008_1_alg».proof.Proof.Gen.Kernel.Frame
import proofs.«181515_j57526791963008_1_alg».proof.Proof.Gen.KernelIdeal
import proofs.«181515_j57526791963008_1_alg».proof.Proof.Gen.KernelIdeal.Skeleton
import proofs.«181515_j57526791963008_1_alg».proof.Proof.Gen.KernelIdeal.Launch
import proofs.«181515_j57526791963008_1_alg».proof.Proof.Gen.KernelIdeal.Points
import proofs.«181515_j57526791963008_1_alg».proof.Proof.Gen.KernelIdeal.Frame
import proofs.«181515_j57526791963008_1_alg».proof.Proof.Gen.ReferenceIdeal
import proofs.«181515_j57526791963008_1_alg».proof.Proof.Gen.Pre_finite_inputs
import proofs.«181515_j57526791963008_1_alg».proof.Proof.Gen.KernelIdeal.Value
import proofs.«181515_j57526791963008_1_alg».proof.Proof.Gen.ReferenceIdeal.Run
import proofs.«181515_j57526791963008_1_alg».proof.Proof.Gen.ReferenceIdeal.Read
import proofs.«181515_j57526791963008_1_alg».proof.Proof.KernelArray
import proofs.«181515_j57526791963008_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the argument both programs end with the result array at `G` of the argument. -/
theorem algebraic : Cert.algebraic_KernelIdeal_ReferenceIdeal := by
  intro m ρ m' ρ' _ hagree
  refine ⟨fun c => Cert.Pool.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
